-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x1 : Shape := ⟨2, ![16777216, 1]⟩
abbrev S_ : Shape := ⟨0, ![]⟩

class Facts : Prop where
  bcast_S_S16777216x1 : S_.BroadcastsInDim S16777216x1 (![] : Fin 0 → Fin S16777216x1.rank)
  reducesTo_S16777216x1_S_d0_1 : S16777216x1.ReducesTo [0, 1] S_
  h_S_ : 0 < S_.numel

variable [Facts]

def fn {F : FTy → Type} [FloatOps F] (main_arg0 : FVec F S16777216x1 .f32) (main_arg1 : FVec F S16777216x1 .f32) : IVec S_ 1 :=
  let main_v0 : FVec F S16777216x1 .f32 := Host.absf main_arg0
  let main_cst : FVec F S_ .f32 := constant S_ .f32 0x7F800000#32
  let main_v1 : FVec F S16777216x1 .f32 := broadcastInDim S16777216x1 ![] bcast_S_S16777216x1 main_cst
  let main_v2 : IVec S16777216x1 1 := cmpf .olt main_v0 main_v1
  let main_c : IVec S_ 1 := constantI S_ 1 1#1
  let main_v3 : IVec S_ 1 := (fun x v => Host.reduce IntOp.andi x v reducesTo_S16777216x1_S_d0_1 h_S_) main_v2 main_c
  let main_v4 : FVec F S16777216x1 .f32 := Host.absf main_arg1
  let main_cst_0 : FVec F S_ .f32 := constant S_ .f32 0x7F800000#32
  let main_v5 : FVec F S16777216x1 .f32 := broadcastInDim S16777216x1 ![] bcast_S_S16777216x1 main_cst_0
  let main_v6 : IVec S16777216x1 1 := cmpf .olt main_v4 main_v5
  let main_c_1 : IVec S_ 1 := constantI S_ 1 1#1
  let main_v7 : IVec S_ 1 := (fun x v => Host.reduce IntOp.andi x v reducesTo_S16777216x1_S_d0_1 h_S_) main_v6 main_c_1
  let main_v8 : IVec S_ 1 := andi main_v3 main_v7
  main_v8
-- ==== Kernel.lean ====
abbrev S16777216x1 : Shape := ⟨2, ![16777216, 1]⟩
abbrev S131072x128 : Shape := ⟨2, ![131072, 128]⟩
abbrev S8192x128 : Shape := ⟨2, ![8192, 128]⟩

abbrev nBuf : Space → Nat
  | .hbm => 6
  | .vmem => 6
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S131072x128, .f32⟩
  | .hbm, ⟨3, _⟩ => ⟨S131072x128, .f32⟩
  | .hbm, ⟨4, _⟩ => ⟨S131072x128, .f32⟩
  | .hbm, ⟨5, _⟩ => ⟨S16777216x1, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S16777216x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S16777216x1_S131072x128 : S16777216x1.ShapeCasts S131072x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  shapeCasts_S131072x128_S16777216x1 : S131072x128.ShapeCasts S16777216x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S131072x128.size a
  hwx0_2 : ∀ i : grid0.Coords, EltTy.bits .f32 = 32 ∨ (Rect.block (s := S131072x128) S8192x128.size (cc0_transform_2 i) (hinb0_2 i)).WholeWords (EltTy.packing .f32)

variable [Facts₀]

abbrev win0_0 : Pipeline.Window sig grid0 :=
  Pipeline.Window.ofSpec (Memref.whole main_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where
  halias0_2 : Pipeline.Aliased win0 0 2

variable [Facts]
-- ==== ReferenceIdeal.lean ====
abbrev S16777216x1 : Shape := ⟨2, ![16777216, 1]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S16777216x1, .f32⟩
  | .hbm, ⟨1, _⟩ => ⟨S16777216x1, .f32⟩
  | .hbm, ⟨2, _⟩ => ⟨S_, .f32⟩
  | .hbm, ⟨3, _⟩ => ⟨S16777216x1, .f32⟩
  | .hbm, ⟨4, _⟩ => ⟨S16777216x1, .f32⟩
  | .hbm, ⟨5, _⟩ => ⟨S_, .f32⟩
  | .hbm, ⟨6, _⟩ => ⟨S16777216x1, .f32⟩
  | .hbm, ⟨7, _⟩ => ⟨S16777216x1, .f32⟩
  | .hbm, ⟨8, _⟩ => ⟨S16777216x1, .f32⟩
  | .hbm, ⟨9, _⟩ => ⟨S16777216x1, .f32⟩
  | .hbm, ⟨10, _⟩ => ⟨S16777216x1, .f32⟩
  | .hbm, ⟨11, _⟩ => ⟨S16777216x1, .f32⟩
  | _, _ => ⟨S16777216x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S16777216x1 : S_.BroadcastsInDim S16777216x1 (![] : Fin 0 → Fin S16777216x1.rank)

variable [Facts₀]

class Facts : Prop extends Facts₀ where

variable [Facts]
-- ==== Proof.EntryArrays.lean ====
/-
  The arrays the kernel's region finds.

  Before the region the program re-lays each argument, a column of 16777216 entries, as 131072 rows of 128 lanes; the
  region's first window stages blocks of the re-laid predictions and its second window blocks of the re-laid targets.
  Re-laying keeps the row-major order, so entry `(r, l)` of a re-laid array is entry `128 · r + l` of the column.
-/
import proofs.«126999_j33784212750850_2_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The first window's array at the region's entry: the predictions re-laid. -/
theorem predictions (c : Dev nD) :
    (V m c main_v0 : S131072x128.Idx → F .f32)
      = shapeCast S131072x128 (m ((c : Thread nD τ).loc main_arg0)) shapeCasts_S16777216x1_S131072x128 := by
  show StableHlo.after hostOps0 (fun b => m (c, b)) (Proc.devRef .tc main_v0) = _
  after_results
  rfl

/-- The second window's array at the region's entry: the targets re-laid. -/
theorem targets (c : Dev nD) :
    (V m c main_v1 : S131072x128.Idx → F .f32)
      = shapeCast S131072x128 (m ((c : Thread nD τ).loc main_arg1)) shapeCasts_S16777216x1_S131072x128 := by
  show StableHlo.after hostOps0 (fun b => m (c, b)) (Proc.devRef .tc main_v1) = _
  after_results
  rfl

end Cert.KernelIdeal.Entry

end
-- ==== Proof.Clamp.lean ====
/-
  The function both programs compute, and why re-laying the arrays does not change it.

  For an entry `p` of the predictions and the entry `y` of the targets at the same place, the result is `p` clamped to
  the interval whose ends are `-9 · y` and `11 · y`, in whichever order the sign of `y` puts them: with `a = -9 · y` and
  `b = 11 · y` it is `min (max a b) (max (min a b) p)`. The two factors are the single-precision words of `-9` and
  `11`; both programs carry the same two words, so they are never evaluated here.

  The clamp acts entry by entry. It therefore commutes with every re-indexing of the arrays: clamping two columns
  of 16777216 entries re-laid as 131072 rows of 128 lanes, and re-laying the result as one column again, is clamping
  the columns themselves, because re-laying there and back is the identity. Nothing else is needed to identify the
  two programs: no law of the extended reals is used, and so no finiteness of the inputs.
-/
import Idealize.ShloMosaic.Lib.Pipeline.Value

noncomputable section

namespace Cert.Clamp

open Idealize.ShloMosaic

variable {F : FTy → Type} [FloatOps F]

/-- One entry: `p` clamped between `-9 · y` and `11 · y`, the lower end being the smaller of the two products and the
    upper end the larger. -/
def entry (p y : F .f32) : F .f32 :=
  FloatOps.minimumf
    (FloatOps.maximumf (FloatOps.mulf (FloatOps.ofBits .f32 0xC1100000#32) y) (FloatOps.mulf (FloatOps.ofBits .f32 0x41300000#32) y))
    (FloatOps.maximumf
      (FloatOps.minimumf (FloatOps.mulf (FloatOps.ofBits .f32 0xC1100000#32) y) (FloatOps.mulf (FloatOps.ofBits .f32 0x41300000#32) y))
      p)

/-- Two arrays over one index type, clamped entry by entry. -/
def arrays {ι : Type} (p y : ι → F .f32) : ι → F .f32 := fun i => entry (p i) (y i)

theorem arrays_apply {ι : Type} (p y : ι → F .f32) (i : ι) : arrays p y i = entry (p i) (y i) := rfl

/-- Clamping commutes with re-laying: the clamp of two re-laid arrays is the clamp re-laid. Both sides read the
    operands at the same place of the row-major order. -/
theorem arrays_relaid {s t : Shape} (p y : s.Idx → F .f32) (h : s.ShapeCasts t) :
    arrays (shapeCast t p h) (shapeCast t y h) = shapeCast t (arrays p y) h := rfl

/-- Re-lay, clamp, re-lay back: the clamp of the arrays as they were. -/
theorem relaid_back {s t : Shape} (p y : s.Idx → F .f32) (h : s.ShapeCasts t) (h' : t.ShapeCasts s) :
    shapeCast s (arrays (shapeCast t p h) (shapeCast t y h)) h' = arrays p y := by
  rw [arrays_relaid, shapeCast_shapeCast]

/-- The same clamp written with the whole-array operations, as a kernel body or a host program spells it: the two
    factors broadcast, the products, their minimum and maximum, then the maximum with the predictions and the
    minimum with the upper end. -/
theorem ops_eq {s : Shape} (p y : FVec F s .f32) :
    minimumf
      (maximumf (mulf (broadcast s (FloatOps.ofBits (F := F) .f32 0xC1100000#32)) y) (mulf (broadcast s (FloatOps.ofBits (F := F) .f32 0x41300000#32)) y))
      (maximumf
        (minimumf (mulf (broadcast s (FloatOps.ofBits (F := F) .f32 0xC1100000#32)) y) (mulf (broadcast s (FloatOps.ofBits (F := F) .f32 0x41300000#32)) y))
        p)
      = arrays p y := rfl

end Cert.Clamp

end
-- ==== Proof.BodyValue.lean ====
/-
  What the kernel body stores, as a function of what it loads.

  At every grid point the body loads one block of 8192 rows by 128 lanes of the targets and the block of the predictions at
  the same place, and stores one block of the same extent. The stored block is the clamp of the two loaded blocks, entry
  by entry: the body's two casts are casts of a block to its own shape, hence the identity, and what is left is the clamp
  spelt with whole-block operations.
-/
import proofs.«126999_j33784212750850_2_alg».proof.Proof.Gen.KernelIdeal.Skeleton
import proofs.«126999_j33784212750850_2_alg».proof.Proof.Clamp

noncomputable section

namespace Cert.KernelIdeal.Body

open Cert.KernelIdeal Cert.KernelIdeal.Gen Idealize.ShloMosaic

variable {F : FTy → Type} [FloatOps F]

/-- The stored block is the clamp of the predictions' block `p` by the targets' block `y`. The body loads the targets
    first, so they are the first operand of its payload. -/
theorem stored_eq (y p : Vec F S8192x128 .f32) : k0_pay1 y p = Cert.Clamp.arrays p y := by
  unfold k0_pay1
  simp only [shapeCast_self]
  exact Cert.Clamp.ops_eq p y

end Cert.KernelIdeal.Body

end
-- ==== Proof.OutputArray.lean ====
/-
  From the blocks the grid points write back to the whole output array.

  The grid has 16 points. At point `t` each of the three windows is on block row `t` of its array (and on the only block
  column): rows `8192 · t` to `8192 · t + 8191`, all 128 lanes. So the block the body stores at `t` — the clamp of the two
  loaded blocks — is block `t` of ONE function of the whole arrays, the clamp of the re-laid predictions by the re-laid
  targets; and since row `r` lies in the block of point `r / 8192`, the 16 blocks cover the array of 131072 rows. The
  output array therefore ends holding that clamp everywhere, whatever it held before.
-/
import proofs.«126999_j33784212750850_2_alg».proof.Proof.Gen.KernelIdeal.Frame
import proofs.«126999_j33784212750850_2_alg».proof.Proof.BodyValue
import Idealize.ShloMosaic.Lib.Pipeline.Value

noncomputable section

namespace Cert.KernelIdeal.Output

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The body's loads and its store all start at the corner of their buffers. -/
theorem corner : (![0, 0] : Fin 2 → Nat) = fun _ => 0 := funext fun a => by fin_cases a <;> rfl

/-- Where the windows are at point `t`: all three on block row `t`, block column `0` (decided over the 16 points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the clamp of the two arrays the region found: the stored block is the clamp
    of the loaded blocks, and the two input windows read their arrays through the same rows and lanes as the output
    window writes. -/
theorem flushed_eq (c : Dev nD) (t : Fin cfg0.N) :
    (dats m 0 c).flushed 2 t
      = ((cfg0.win 2).blk t).view.read (Elt F)
          (Cert.Clamp.arrays (V m c main_v0 : S131072x128.Idx → F .f32) (V m c main_v1 : S131072x128.Idx → F .f32)) := by
  show (cfg0.win 2).cut (grid0.coords t) ((dats m 0 c).after 2 t) = _
  rw [after0_2]
  unfold out0_2
  rw [View.canon_unit_zero corner]
  simp only [View.ld_unit_zero (S := S8192x128) corner]
  rw [Cert.KernelIdeal.Body.stored_eq]
  obtain ⟨e0, e1, e2, e3, e4, e5⟩ := block_index t
  funext j
  show Cert.Clamp.entry (V m c main_v0 (((cfg0.win 0).blk t).view.emb j)) (V m c main_v1 (((cfg0.win 1).blk t).view.emb j))
    = Cert.Clamp.entry (V m c main_v0 (((cfg0.win 2).blk t).view.emb j)) (V m c main_v1 (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 8192 + 1 * (j 0).val = win0_2.index t (0 : Fin 2) * 8192 + 1 * (j 0).val; omega
    | ⟨1, _⟩ => show win0_0.index t (1 : Fin 2) * 128 + 1 * (j 1).val = win0_2.index t (1 : Fin 2) * 128 + 1 * (j 1).val; omega
  have h1 : ((cfg0.win 1).blk t).view.emb j = ((cfg0.win 2).blk t).view.emb j := by
    funext a; apply Fin.ext
    match a with
    | ⟨0, _⟩ => show win0_1.index t (0 : Fin 2) * 8192 + 1 * (j 0).val = win0_2.index t (0 : Fin 2) * 8192 + 1 * (j 0).val; omega
    | ⟨1, _⟩ => show win0_1.index t (1 : Fin 2) * 128 + 1 * (j 1).val = win0_2.index t (1 : Fin 2) * 128 + 1 * (j 1).val; omega
  rw [h0, h1]

/-- An entry of the output array is in point `t`'s block exactly when, on each axis, its coordinate is within the
    block's extent from the block's first coordinate. -/
theorem mem_block (t : Fin cfg0.N) (i : S131072x128.Idx) :
    i ∈ ((cfg0.win 2).blk t).view.set
      ↔ ∀ a : Fin 2, win0_2.index t a * S8192x128.size a ≤ (i a).val ∧ (i a).val < win0_2.index t a * S8192x128.size a + S8192x128.size a := by
  show i ∈ ((View.whole main_v2).slice (win0_2.rect t)).set ↔ _
  rw [View.set_slice_whole, Rect.mem_set_unit]
  exact Iff.rfl

/-- Every entry is written back by some point: row `r` by point `r / 8192`. -/
theorem covered (i : S131072x128.Idx) :
    ∃ t : Fin cfg0.N, (cfg0.win 2).flush t = true ∧ i ∈ ((cfg0.win 2).blk t).view.set := by
  have hN : grid0.N = 16 := N_0
  have hi0 : (i 0).val < 131072 := (i 0).isLt
  have hi1 : (i 1).val < 128 := (i 1).isLt
  obtain ⟨t, ht⟩ : ∃ t : Fin cfg0.N, t.val = (i 0).val / 8192 :=
    ⟨⟨(i 0).val / 8192, by show (i 0).val / 8192 < grid0.N; omega⟩, rfl⟩
  obtain ⟨-, -, -, -, e4, e5⟩ := block_index t
  refine ⟨t, flush0_2 t, ?_⟩
  rw [mem_block]
  intro a
  match a with
  | ⟨0, _⟩ => show win0_2.index t (0 : Fin 2) * 8192 ≤ (i 0).val ∧ (i 0).val < win0_2.index t (0 : Fin 2) * 8192 + 8192; omega
  | ⟨1, _⟩ => show win0_2.index t (1 : Fin 2) * 128 ≤ (i 1).val ∧ (i 1).val < win0_2.index t (1 : Fin 2) * 128 + 128; omega

/-- The output array after the last point: the clamp of the re-laid predictions by the re-laid targets, entry by entry. -/
theorem final (c : Dev nD) :
    (dats m 0 c).arrAt 2 cfg0.N
      = Cert.Clamp.arrays (V m c main_v0 : S131072x128.Idx → F .f32) (V m c main_v1 : S131072x128.Idx → F .f32) :=
  (dats m 0 c).arrAt_eq_of_cover 2 _ (fun t _ => flushed_eq m c t) covered

end Cert.KernelIdeal.Output

end
-- ==== Proof.KernelResult.lean ====
/-
  The idealized kernel's result as one function of its arguments.

  After the region the program re-lays the output array of 131072 rows by 128 lanes as a column of 16777216 entries: that
  column is the result. The output array holds the clamp of the re-laid predictions by the re-laid targets; the clamp
  commutes with re-laying, and re-laying there and back is the identity; so the result is the clamp of the predictions by
  the targets, entry by entry, as columns. The arguments themselves are never written.
-/
import proofs.«126999_j33784212750850_2_alg».proof.Proof.EntryArrays
import proofs.«126999_j33784212750850_2_alg».proof.Proof.OutputArray

noncomputable section

namespace Cert.KernelIdeal.Result

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The result buffer after the program's last line: the output array, as the region leaves it, re-laid as a column. -/
theorem relaid_output (c : Dev nD) :
    (Pipeline.afterTail₀ cfgs (dats m) 0 (V0 m) [hostOps1] c main_v3 : S16777216x1.Idx → F .f32)
      = shapeCast S16777216x1 ((dats m 0 c).arrAt 2 cfg0.N : S131072x128.Idx → F .f32) shapeCasts_S131072x128_S16777216x1 := by
  unfold Pipeline.afterTail₀
  show StableHlo.after hostOps1 _ (Proc.devRef .tc main_v3) = _
  after_results
  rw [Pipeline.withArrays_arr spec0 launch0.win.arr_inj c _ _ 2]
  rfl

/-- The result buffer is the clamp of the predictions by the targets, as the program was launched with them. -/
theorem result_eq (c : Dev nD) :
    (Pipeline.afterTail₀ cfgs (dats m) 0 (V0 m) [hostOps1] c main_v3 : S16777216x1.Idx → F .f32)
      = Cert.Clamp.arrays (m ((c : Thread nD τ).loc main_arg0)) (m ((c : Thread nD τ).loc main_arg1)) := by
  rw [relaid_output, Cert.KernelIdeal.Output.final, Cert.KernelIdeal.Entry.predictions, Cert.KernelIdeal.Entry.targets]
  exact Cert.Clamp.relaid_back _ _ _ _

/-- Every weakly fair execution of the idealized kernel's program terminates without a fault, with the result at the
    clamp of its arguments and the arguments unchanged. -/
theorem run : θ_run defs (onTc (τ := τ) (main (F := F))) ⟨m, fun _ => 0, ρ⟩ fun r => ∀ c : Dev nD,
      r.2.mem ((c : Thread nD τ).loc main_v3)
        = Cert.Clamp.arrays (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v3 (Pipeline.mem_restRefs_of main_v3 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.ReferenceResult.lean ====
/-
  The idealized reference's result as the same function of its arguments.

  The reference works on the columns directly: it multiplies the targets by `-9` and by `11`, takes the minimum and the
  maximum of the two products, then the maximum of the lower end with the predictions and the minimum of that with the
  upper end. Read at an entry, operation by operation, that is the clamp of the predictions' entry by the targets' entry.
-/
import proofs.«126999_j33784212750850_2_alg».proof.Proof.Gen.ReferenceIdeal.Read
import proofs.«126999_j33784212750850_2_alg».proof.Proof.Clamp

noncomputable section

namespace Cert.ReferenceIdeal.Result

open Cert.ReferenceIdeal Cert.ReferenceIdeal.Read Idealize.ShloMosaic

variable {F : FTy → Type} [FloatOps F]

/-- The reference's last stage is the clamp of its first argument by its second. Each stage reads its operands at the
    entry it writes; the two factors are broadcast scalars, the same at every entry. -/
theorem stage_eq (x0 x1 : S16777216x1.Idx → F .f32) : val_main_v6 (F := F) x0 x1 = Cert.Clamp.arrays x0 x1 := by
  funext i
  rw [val_main_v6_apply, val_main_v5_apply, val_main_call0_v0_apply, val_main_v4_apply, val_main_v1_apply, val_main_v3_apply,
    val_main_v0_apply, val_main_v2_apply, val_main_cst_apply, val_main_cst_0_apply]
  rfl

end Cert.ReferenceIdeal.Result

end
-- ==== Proof.lean ====
/-
  The proof of the certificate's claim: a clamp kernel against its reference, over the extended reals.

  Both programs take a column of 16777216 predictions and a column of 16777216 targets and return, entry by entry, the
  prediction clamped to the interval whose ends are `-9 · y` and `11 · y` for the target `y` at that entry
  (Proof/Clamp.lean). The reference computes this on the columns (Proof/ReferenceResult.lean). The kernel re-lays both
  columns as 131072 rows of 128 lanes, clamps blocks of 8192 rows at 16 grid points into an output array that the 16
  blocks cover (Proof/BodyValue.lean, Proof/EntryArrays.lean, Proof/OutputArray.lean), and re-lays that array as a
  column (Proof/KernelResult.lean). The clamp acts entry by entry, so it commutes with re-laying, and re-laying there and
  back is the identity: the two results are one function of the arguments. The two programs apply the same operations
  with the same two literal factors, so no law of the extended reals is needed and the finiteness of the inputs is
  never used.

  The three runs terminate without faults and leave the arguments as they were: for the two kernel programs this is the
  generated frame, for the reference its generated run. The idealized kernel is the kernel's own text read over the
  extended reals (no operation was rewritten), so nothing is owed for that conjunct.
-/
import proofs.«126999_j33784212750850_2_alg».proof.Defs
import proofs.«126999_j33784212750850_2_alg».proof.Proof.Gen.Kernel
import proofs.«126999_j33784212750850_2_alg».proof.Proof.Gen.Kernel.Skeleton
import proofs.«126999_j33784212750850_2_alg».proof.Proof.Gen.Kernel.Launch
import proofs.«126999_j33784212750850_2_alg».proof.Proof.Gen.Kernel.Points
import proofs.«126999_j33784212750850_2_alg».proof.Proof.Gen.Kernel.Frame
import proofs.«126999_j33784212750850_2_alg».proof.Proof.Gen.KernelIdeal
import proofs.«126999_j33784212750850_2_alg».proof.Proof.Gen.KernelIdeal.Skeleton
import proofs.«126999_j33784212750850_2_alg».proof.Proof.Gen.KernelIdeal.Launch
import proofs.«126999_j33784212750850_2_alg».proof.Proof.Gen.KernelIdeal.Points
import proofs.«126999_j33784212750850_2_alg».proof.Proof.Gen.KernelIdeal.Frame
import proofs.«126999_j33784212750850_2_alg».proof.Proof.Gen.ReferenceIdeal
import proofs.«126999_j33784212750850_2_alg».proof.Proof.Gen.ReferenceIdeal.Run
import proofs.«126999_j33784212750850_2_alg».proof.Proof.Gen.ReferenceIdeal.Read
import proofs.«126999_j33784212750850_2_alg».proof.Proof.Gen.Pre_finite_inputs
import proofs.«126999_j33784212750850_2_alg».proof.Proof.KernelResult
import proofs.«126999_j33784212750850_2_alg».proof.Proof.ReferenceResult
import Idealize.ShloMosaic.Adequacy
import Idealize.ShloMosaic.Init

noncomputable section

namespace Cert.Proof

open Idealize.ShloMosaic Idealize.SL.Sem

/-- The kernel as printed runs to the end and keeps its arguments. -/
theorem frame_kernel : Cert.frame_Kernel :=
  fun m ρ _ => Cert.Kernel.Gen.frame m ρ

/-- So does the kernel read over the extended reals. -/
theorem frame_kernel_ideal : Cert.frame_KernelIdeal :=
  fun m ρ _ => Cert.KernelIdeal.Gen.frame m ρ

/-- And the reference: its run, with the result forgotten. -/
theorem frame_reference_ideal : Cert.frame_ReferenceIdeal :=
  fun m ρ _ => (θ_run Cert.ReferenceIdeal.defs _ _).mono (fun _ h c => (h c).2)
    (Cert.ReferenceIdeal.Value.run (F := Ideal) m ρ)

/-- From memories that agree on the two arguments both programs end with the result at the clamp of the predictions by
    the targets: the kernel's run posts it of its own arguments, the reference's run of its own, and those are the same
    arrays. -/
theorem algebraic : Cert.algebraic_KernelIdeal_ReferenceIdeal := by
  intro m ρ m' ρ' _ hagree
  refine ⟨_, Cert.KernelIdeal.Result.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.Result.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
